-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x3x3 : Shape := ⟨3, ![4000000, 3, 3]⟩
abbrev S_ : Shape := ⟨0, ![]⟩

class Facts : Prop where
  bcast_S_S4000000x3x3 : S_.BroadcastsInDim S4000000x3x3 (![] : Fin 0 → Fin S4000000x3x3.rank)
  reducesTo_S4000000x3x3_S_d0_1_2 : S4000000x3x3.ReducesTo [0, 1, 2] S_
  h_S_ : 0 < S_.numel

variable [Facts]

def fn {F : FTy → Type} [FloatOps F] (main_arg0 : FVec F S4000000x3x3 .f32) : IVec S_ 1 :=
  let main_v0 : FVec F S4000000x3x3 .f32 := Host.absf main_arg0
  let main_cst : FVec F S_ .f32 := constant S_ .f32 0x7F800000#32
  let main_v1 : FVec F S4000000x3x3 .f32 := broadcastInDim S4000000x3x3 ![] bcast_S_S4000000x3x3 main_cst
  let main_v2 : IVec S4000000x3x3 1 := cmpf .olt main_v0 main_v1
  let main_c : IVec S_ 1 := constantI S_ 1 1#1
  let main_v3 : IVec S_ 1 := (fun x v => Host.reduce IntOp.andi x v reducesTo_S4000000x3x3_S_d0_1_2 h_S_) main_v2 main_c
  main_v3
-- ==== Kernel.lean ====
abbrev S4000000x3x3 : Shape := ⟨3, ![4000000, 3, 3]⟩
abbrev S4000000x9 : Shape := ⟨2, ![4000000, 9]⟩
abbrev S100x1x40000 : Shape := ⟨3, ![100, 1, 40000]⟩
abbrev S40000x9 : Shape := ⟨2, ![40000, 9]⟩
abbrev S1x1x40000 : Shape := ⟨3, ![1, 1, 40000]⟩
abbrev S40000x1 : Shape := ⟨2, ![40000, 1]⟩
abbrev S40000 : Shape := ⟨1, ![40000]⟩
abbrev S1x40000 : Shape := ⟨2, ![1, 40000]⟩
abbrev S4000000 : Shape := ⟨1, ![4000000]⟩

abbrev nBuf : Space → Nat
  | .hbm => 4
  | .vmem => 4
  | .smem => 0
  | _ => 0

abbrev bufTy : (tb : Table) → Fin (tcTables nBuf tb) → BufTy
  | .hbm, ⟨0, _⟩ => ⟨S4000000x3x3, .f32⟩
  | .hbm, ⟨1, _⟩ => ⟨S4000000x9, .f32⟩
  | .hbm, ⟨2, _⟩ => ⟨S100x1x40000, .f32⟩
  | .hbm, ⟨3, _⟩ => ⟨S4000000, .f32⟩
  | .local _ .vmem, ⟨0, _⟩ => ⟨S40000x9, .f32⟩
  | .local _ .vmem, ⟨1, _⟩ => ⟨S40000x9, .f32⟩
  | .local _ .vmem, ⟨2, _⟩ => ⟨S1x1x40000, .f32⟩
  | .local _ .vmem, ⟨3, _⟩ => ⟨S1x1x40000, .f32⟩
  | _, _ => ⟨S4000000x3x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S40000x9 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x40000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S4000000x3x3_S4000000x9 : S4000000x3x3.ShapeCasts S4000000x9
  inb_S40000x9_S40000x9_0_0 : ∀ a, (![0, 0] : Fin 2 → Nat) a + S40000x9.size a ≤ S40000x9.size a
  h_S40000x9 : 0 < S40000x9.numel
  shapeCasts_S40000x9_S40000x9 : S40000x9.ShapeCasts S40000x9
  slices_S40000x9_o0_0_S40000x1 : S40000x9.Slices ![0, 0] S40000x1
  slices_S40000x9_o0_1_S40000x1 : S40000x9.Slices ![0, 1] S40000x1
  slices_S40000x9_o0_2_S40000x1 : S40000x9.Slices ![0, 2] S40000x1
  slices_S40000x9_o0_3_S40000x1 : S40000x9.Slices ![0, 3] S40000x1
  slices_S40000x9_o0_4_S40000x1 : S40000x9.Slices ![0, 4] S40000x1
  slices_S40000x9_o0_5_S40000x1 : S40000x9.Slices ![0, 5] S40000x1
  slices_S40000x9_o0_6_S40000x1 : S40000x9.Slices ![0, 6] S40000x1
  slices_S40000x9_o0_7_S40000x1 : S40000x9.Slices ![0, 7] S40000x1
  slices_S40000x9_o0_8_S40000x1 : S40000x9.Slices ![0, 8] S40000x1
  reduces_S40000x9_S40000 : S40000x9.Reduces [1] S40000
  shapeCasts_S40000_S40000x1 : S40000.ShapeCasts S40000x1
  transposes_S40000x1_p1_0_S1x40000 : S40000x1.Transposes [1, 0] S1x40000
  shapeCasts_S1x40000_S1x1x40000 : S1x40000.ShapeCasts S1x1x40000
  inb_S1x1x40000_S1x1x40000_0_0_0 : ∀ a, (![0, 0, 0] : Fin 3 → Nat) a + S1x1x40000.size a ≤ S1x1x40000.size a
  h_S1x1x40000 : 0 < S1x1x40000.numel
  shapeCasts_S100x1x40000_S4000000 : S100x1x40000.ShapeCasts S4000000
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S40000x9.size a ≤ S4000000x9.size a
  hwx0_0 : ∀ i : grid0.Coords, EltTy.bits .f32 = 32 ∨ (Rect.block (s := S4000000x9) S40000x9.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x40000.size a ≤ S100x1x40000.size a
  hwx0_1 : ∀ i : grid0.Coords, EltTy.bits .f32 = 32 ∨ (Rect.block (s := S100x1x40000) S1x1x40000.size (cc0_transform_1 i) (hinb0_1 i)).WholeWords (EltTy.packing .f32)

variable [Facts₀]

abbrev win0_0 : Pipeline.Window sig grid0 :=
  Pipeline.Window.ofSpec (Memref.whole main_v0) S40000x9.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x40000.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4000000x3x3 : Shape := ⟨3, ![4000000, 3, 3]⟩
abbrev S3x3 : Shape := ⟨2, ![3, 3]⟩
abbrev S_ : Shape := ⟨0, ![]⟩
abbrev S4000000 : Shape := ⟨1, ![4000000]⟩
abbrev S4000000x1x1 : Shape := ⟨3, ![4000000, 1, 1]⟩

abbrev nBuf : Space → Nat
  | .hbm => 79
  | .vmem => 0
  | .smem => 0
  | _ => 0

abbrev bufTy : (tb : Table) → Fin (tcTables nBuf tb) → BufTy
  | .hbm, ⟨0, _⟩ => ⟨S4000000x3x3, .f32⟩
  | .hbm, ⟨1, _⟩ => ⟨S4000000x3x3, .f32⟩
  | .hbm, ⟨2, _⟩ => ⟨S3x3, .i32⟩
  | .hbm, ⟨3, _⟩ => ⟨S3x3, .i32⟩
  | .hbm, ⟨4, _⟩ => ⟨S3x3, .i1⟩
  | .hbm, ⟨5, _⟩ => ⟨S4000000x3x3, .i1⟩
  | .hbm, ⟨6, _⟩ => ⟨S_, .f32⟩
  | .hbm, ⟨7, _⟩ => ⟨S4000000x3x3, .f32⟩
  | .hbm, ⟨8, _⟩ => ⟨S4000000x3x3, .f32⟩
  | .hbm, ⟨9, _⟩ => ⟨S_, .f32⟩
  | .hbm, ⟨10, _⟩ => ⟨S4000000, .f32⟩
  | .hbm, ⟨11, _⟩ => ⟨S4000000x3x3, .f32⟩
  | .hbm, ⟨12, _⟩ => ⟨S_, .f32⟩
  | .hbm, ⟨13, _⟩ => ⟨S4000000, .f32⟩
  | .hbm, ⟨14, _⟩ => ⟨S4000000, .f32⟩
  | .hbm, ⟨15, _⟩ => ⟨S4000000, .f32⟩
  | .hbm, ⟨16, _⟩ => ⟨S_, .f32⟩
  | .hbm, ⟨17, _⟩ => ⟨S4000000, .f32⟩
  | .hbm, ⟨18, _⟩ => ⟨S4000000, .f32⟩
  | .hbm, ⟨19, _⟩ => ⟨S4000000x1x1, .f32⟩
  | .hbm, ⟨20, _⟩ => ⟨S4000000, .f32⟩
  | .hbm, ⟨21, _⟩ => ⟨S4000000x1x1, .f32⟩
  | .hbm, ⟨22, _⟩ => ⟨S4000000, .f32⟩
  | .hbm, ⟨23, _⟩ => ⟨S4000000x1x1, .f32⟩
  | .hbm, ⟨24, _⟩ => ⟨S4000000, .f32⟩
  | .hbm, ⟨25, _⟩ => ⟨S4000000, .f32⟩
  | .hbm, ⟨26, _⟩ => ⟨S4000000x1x1, .f32⟩
  | .hbm, ⟨27, _⟩ => ⟨S4000000, .f32⟩
  | .hbm, ⟨28, _⟩ => ⟨S4000000x1x1, .f32⟩
  | .hbm, ⟨29, _⟩ => ⟨S4000000, .f32⟩
  | .hbm, ⟨30, _⟩ => ⟨S4000000, .f32⟩
  | .hbm, ⟨31, _⟩ => ⟨S4000000, .f32⟩
  | .hbm, ⟨32, _⟩ => ⟨S4000000, .f32⟩
  | .hbm, ⟨33, _⟩ => ⟨S4000000x1x1, .f32⟩
  | .hbm, ⟨34, _⟩ => ⟨S4000000, .f32⟩
  | .hbm, ⟨35, _⟩ => ⟨S4000000x1x1, .f32⟩
  | .hbm, ⟨36, _⟩ => ⟨S4000000, .f32⟩
  | .hbm, ⟨37, _⟩ => ⟨S4000000x1x1, .f32⟩
  | .hbm, ⟨38, _⟩ => ⟨S4000000, .f32⟩
  | .hbm, ⟨39, _⟩ => ⟨S4000000, .f32⟩
  | .hbm, ⟨40, _⟩ => ⟨S4000000x1x1, .f32⟩
  | .hbm, ⟨41, _⟩ => ⟨S4000000, .f32⟩
  | .hbm, ⟨42, _⟩ => ⟨S4000000x1x1, .f32⟩
  | .hbm, ⟨43, _⟩ => ⟨S4000000, .f32⟩
  | .hbm, ⟨44, _⟩ => ⟨S4000000, .f32⟩
  | .hbm, ⟨45, _⟩ => ⟨S4000000, .f32⟩
  | .hbm, ⟨46, _⟩ => ⟨S4000000, .f32⟩
  | .hbm, ⟨47, _⟩ => ⟨S4000000, .f32⟩
  | .hbm, ⟨48, _⟩ => ⟨S4000000x1x1, .f32⟩
  | .hbm, ⟨49, _⟩ => ⟨S4000000, .f32⟩
  | .hbm, ⟨50, _⟩ => ⟨S4000000x1x1, .f32⟩
  | .hbm, ⟨51, _⟩ => ⟨S4000000, .f32⟩
  | .hbm, ⟨52, _⟩ => ⟨S4000000x1x1, .f32⟩
  | .hbm, ⟨53, _⟩ => ⟨S4000000, .f32⟩
  | .hbm, ⟨54, _⟩ => ⟨S4000000, .f32⟩
  | .hbm, ⟨55, _⟩ => ⟨S4000000x1x1, .f32⟩
  | .hbm, ⟨56, _⟩ => ⟨S4000000, .f32⟩
  | .hbm, ⟨57, _⟩ => ⟨S4000000x1x1, .f32⟩
  | .hbm, ⟨58, _⟩ => ⟨S4000000, .f32⟩
  | .hbm, ⟨59, _⟩ => ⟨S4000000, .f32⟩
  | .hbm, ⟨60, _⟩ => ⟨S4000000, .f32⟩
  | .hbm, ⟨61, _⟩ => ⟨S4000000, .f32⟩
  | .hbm, ⟨62, _⟩ => ⟨S4000000, .f32⟩
  | .hbm, ⟨63, _⟩ => ⟨S4000000, .f32⟩
  | .hbm, ⟨64, _⟩ => ⟨S_, .f32⟩
  | .hbm, ⟨65, _⟩ => ⟨S4000000, .f32⟩
  | .hbm, ⟨66, _⟩ => ⟨S4000000, .f32⟩
  | .hbm, ⟨67, _⟩ => ⟨S_, .f32⟩
  | .hbm, ⟨68, _⟩ => ⟨S4000000, .f32⟩
  | .hbm, ⟨69, _⟩ => ⟨S4000000, .f32⟩
  | .hbm, ⟨70, _⟩ => ⟨S_, .f32⟩
  | .hbm, ⟨71, _⟩ => ⟨S4000000, .f32⟩
  | .hbm, ⟨72, _⟩ => ⟨S4000000, .f32⟩
  | .hbm, ⟨73, _⟩ => ⟨S4000000, .f32⟩
  | .hbm, ⟨74, _⟩ => ⟨S_, .f32⟩
  | .hbm, ⟨75, _⟩ => ⟨S4000000, .f32⟩
  | .hbm, ⟨76, _⟩ => ⟨S4000000, .f32⟩
  | .hbm, ⟨77, _⟩ => ⟨S4000000, .f32⟩
  | .hbm, ⟨78, _⟩ => ⟨S4000000, .f32⟩
  | _, _ => ⟨S4000000x3x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_cst : Ref sig .tc := ⟨.hbm, 6, rfl⟩
abbrev main_v5 : Ref sig .tc := ⟨.hbm, 7, rfl⟩
abbrev main_v6 : Ref sig .tc := ⟨.hbm, 8, rfl⟩
abbrev main_cst_0 : Ref sig .tc := ⟨.hbm, 9, rfl⟩
abbrev main_v7 : Ref sig .tc := ⟨.hbm, 10, rfl⟩
abbrev main_v8 : Ref sig .tc := ⟨.hbm, 11, rfl⟩
abbrev main_cst_1 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_2 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_cst_3 : Ref sig .tc := ⟨.hbm, 64, rfl⟩
abbrev main_v59 : Ref sig .tc := ⟨.hbm, 65, rfl⟩
abbrev main_v60 : Ref sig .tc := ⟨.hbm, 66, rfl⟩
abbrev main_cst_4 : Ref sig .tc := ⟨.hbm, 67, rfl⟩
abbrev main_v61 : Ref sig .tc := ⟨.hbm, 68, rfl⟩
abbrev main_v62 : Ref sig .tc := ⟨.hbm, 69, rfl⟩
abbrev main_cst_5 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_cst_6 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩

abbrev nD : Nat := 1
abbrev τ : Topo := Topo.v7x

variable {F : FTy → Type} [FloatOps F]

class Facts₀ : Prop where
  bcast_S3x3_S4000000x3x3_1_2 : S3x3.BroadcastsInDim S4000000x3x3 (![1, 2] : Fin 2 → Fin S4000000x3x3.rank)
  bcast_S_S4000000x3x3 : S_.BroadcastsInDim S4000000x3x3 (![] : Fin 0 → Fin S4000000x3x3.rank)
  reducesTo_S4000000x3x3_S4000000_d1_2 : S4000000x3x3.ReducesTo [1, 2] S4000000
  h_S_ : 0 < S_.numel
  bcast_S_S4000000 : S_.BroadcastsInDim S4000000 (![] : Fin 0 → Fin S4000000.rank)
  slices_S4000000x3x3_S4000000x1x1_0_0_0 : S4000000x3x3.Slices ![0, 0, 0] S4000000x1x1
  shapeCasts_S4000000x1x1_S4000000 : S4000000x1x1.ShapeCasts S4000000
  slices_S4000000x3x3_S4000000x1x1_0_1_1 : S4000000x3x3.Slices ![0, 1, 1] S4000000x1x1
  slices_S4000000x3x3_S4000000x1x1_0_2_2 : S4000000x3x3.Slices ![0, 2, 2] S4000000x1x1
  slices_S4000000x3x3_S4000000x1x1_0_1_2 : S4000000x3x3.Slices ![0, 1, 2] S4000000x1x1
  slices_S4000000x3x3_S4000000x1x1_0_2_1 : S4000000x3x3.Slices ![0, 2, 1] S4000000x1x1
  slices_S4000000x3x3_S4000000x1x1_0_0_1 : S4000000x3x3.Slices ![0, 0, 1] S4000000x1x1
  slices_S4000000x3x3_S4000000x1x1_0_1_0 : S4000000x3x3.Slices ![0, 1, 0] S4000000x1x1
  slices_S4000000x3x3_S4000000x1x1_0_2_0 : S4000000x3x3.Slices ![0, 2, 0] S4000000x1x1
  slices_S4000000x3x3_S4000000x1x1_0_0_2 : S4000000x3x3.Slices ![0, 0, 2] S4000000x1x1
  dot_S4000000x3x3_S4000000x3x3_S4000000x3x3_1_1_2_2_0_0_wf : DotDims.WF S4000000x3x3 S4000000x3x3 S4000000x3x3 [1] [1] [2] [2] [0] [0]

variable [Facts₀]

def dot_S4000000x3x3_S4000000x3x3_S4000000x3x3_1_1_2_2_0_0 : DotDims S4000000x3x3 S4000000x3x3 S4000000x3x3 where
  lhsContracting := [1]
  rhsContracting := [1]
  lhsNonContracting := [2]
  rhsNonContracting := [2]
  lhsBatch := [0]
  rhsBatch := [0]
  wf := dot_S4000000x3x3_S4000000x3x3_S4000000x3x3_1_1_2_2_0_0_wf

class Facts : Prop extends Facts₀ where

variable [Facts]
-- ==== Proof.RowPotential.lean ====
/-
  The Neo-Hookean potential of one 3×3 matrix, as a function of its nine entries in row-major order, and of a whole
  batch, on the extended reals.

  For a matrix with entries `z 0 … z 8` (row-major: entry `(k, i)` is `z (3k + i)`):
    I1 = Σ_j z_j²                     the trace of `zᵀz`, which is the sum of the squares of all nine entries;
    J  = z0·(z4·z8 − z5·z7) − z1·(z3·z8 − z5·z6) + z2·(z3·z7 − z4·z6)      the determinant, by cofactors of the first row;
    W  = (c₁·(I1 − 3) − c₂·log J) + (c₃·log J)·log J
  with `c₁, c₂, c₃` the three float constants both programs carry as the same 32-bit words (they are never evaluated:
  the same word on both sides is the same extended real).

  The one law proved here is how the trace is summed. The reference forms the Gram matrix `C_pq = Σ_k y_kp·y_kq`, keeps its
  diagonal and sums all nine masked entries; the kernel sums the nine squares directly. On the extended reals addition is
  commutative and associative at the infinities too, so both are `Σ_k Σ_i y_ki²`: the mask collapses the inner sum over `q`
  to its one term `q = p`, the two remaining sums commute, and the nine entries `j = 3k + i` are the pairs `(k, i)`.
  No finiteness of the entries is used.
-/
import Idealize.ShloMosaic.PureOps.Ideal
import Idealize.ShloMosaic.Lib.ValueIdx

open scoped BigOperators

noncomputable section

namespace Cert.Potential

open Idealize.ShloMosaic Idealize.ShloMosaic.ValueIdx

/-- The determinant of the matrix with row-major entries `z`, by cofactors along its first row. -/
def det3 (z : Fin 9 → EReal) : EReal :=
  z 0 * (z 4 * z 8 - z 5 * z 7) - z 1 * (z 3 * z 8 - z 5 * z 6) + z 2 * (z 3 * z 7 - z 4 * z 6)

/-- The potential from the first invariant `I1` and the determinant `J`. -/
def energy (I1 J : EReal) : EReal :=
  (Ideal.ofBits .f32 0x3E44EC4F#32 * (I1 - Ideal.ofBits .f32 0x40400000#32)
      - Ideal.ofBits .f32 0x3EC4EC4F#32 * Ideal.log J)
    + Ideal.ofBits .f32 0x3E93B13B#32 * Ideal.log J * Ideal.log J

/-- The potential of one matrix from its nine entries. -/
def rowPotential (z : Fin 9 → EReal) : EReal := energy (∑ j, z j * z j) (det3 z)

/-- The row index `k` and the column index `i` of the row-major position `j = 3k + i`. -/
def rowIx (j : Fin 9) : Fin 3 := ⟨j.val / 3, by have := j.isLt; omega⟩
def colIx (j : Fin 9) : Fin 3 := ⟨j.val % 3, by omega⟩

/-- Matrix `n` of a batch `[4000000, 3, 3]`, as its nine row-major entries. -/
def entries (x : (⟨3, ![4000000, 3, 3]⟩ : Shape).Idx → EReal) (n : Fin 4000000) (j : Fin 9) : EReal :=
  x (ix3 n (rowIx j) (colIx j))

/-- The potentials of a whole batch: the result both programs compute. -/
def potentials (x : (⟨3, ![4000000, 3, 3]⟩ : Shape).Idx → EReal) : (⟨1, ![4000000]⟩ : Shape).Idx → EReal :=
  fun i => rowPotential (entries x (i 0))

/-- A sum over the nine row-major positions is the double sum over rows and columns. -/
theorem sum_nine (g : Fin 3 → Fin 3 → EReal) :
    ∑ j : Fin 9, g (rowIx j) (colIx j) = ∑ k : Fin 3, ∑ i : Fin 3, g k i := by
  rw [← Fintype.sum_prod_type' g, ← Equiv.sum_comp (finProdFinEquiv (m := 3) (n := 3))]
  refine Finset.sum_congr rfl fun p _ => ?_
  have hk : rowIx (finProdFinEquiv p) = p.1 := Fin.ext (by
    have h1 := p.1.isLt; have h2 := p.2.isLt
    show (p.2.val + 3 * p.1.val) / 3 = p.1.val; omega)
  have hi : colIx (finProdFinEquiv p) = p.2 := Fin.ext (by
    have h1 := p.1.isLt; have h2 := p.2.isLt
    show (p.2.val + 3 * p.1.val) % 3 = p.2.val; omega)
  rw [hk, hi]

/-- The trace of the Gram matrix, summed as its masked entries, is the sum of the nine squares. -/
theorem trace_gram (y : Fin 3 → Fin 3 → EReal) :
    ∑ p : Fin 3, ∑ q : Fin 3, (if p = q then ∑ k : Fin 3, y k p * y k q else 0)
      = ∑ j : Fin 9, y (rowIx j) (colIx j) * y (rowIx j) (colIx j) := by
  rw [sum_nine (fun k i => y k i * y k i)]
  have collapse : ∀ p : Fin 3,
      (∑ q : Fin 3, if p = q then ∑ k : Fin 3, y k p * y k q else 0) = ∑ k : Fin 3, y k p * y k p := fun p => by
    rw [Finset.sum_ite_eq Finset.univ p (fun q => ∑ k : Fin 3, y k p * y k q), if_pos (Finset.mem_univ p)]
  rw [Finset.sum_congr rfl fun p _ => collapse p]
  exact Finset.sum_comm

end Cert.Potential

end
-- ==== Proof.LibKeepdims.lean ====
/-
  Two layout operations read at an index given by coordinates, for a reduction that keeps its reduced axis as a
  unit axis: a vector of `a` entries cast to a column `[a, 1]`, and a column `[a, 1]` broadcast along its unit
  axis to `[a, b]`. Both are instances of the library's general lemmas (a shape cast reads the operand at the index
  with the same row-major position; a broadcast reads the operand at the trailing coordinates, `0` on unit axes)
  with the coordinates' arithmetic discharged.
-/
import Idealize.ShloMosaic.Lib.Pipeline.Value
import Idealize.ShloMosaic.Lib.ValueIdx

namespace Cert.Keepdims

open Idealize.ShloMosaic Idealize.ShloMosaic.ValueIdx

variable {α : Type}

/-- An `[a]` array cast to a column `[a, 1]` reads, at `(i, u)`, the operand at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.KernelRow.lean ====
/-
  What the kernel body stores, read at one element. The body loads a block `x0` of 40000 rows by 9 columns — row `l` of
  the block holds the nine row-major entries of one 3×3 matrix — and stores a `[1, 1, 40000]` block whose element
  `(0, 0, l)` is the potential of row `l`:
    • the nine column slices `x0[:, c:c+1]` read, at `(l, 0)`, the entry `x0 (l, c)`;
    • the lane sum of `x0 * x0` over the nine columns, kept as a column `[40000, 1]`, reads at `(l, 0)` the sum of the
      squares of row `l` (the accumulator is the zero word, which the sum leaves out);
    • the determinant, the logarithm and the three scaled terms are pointwise in `l`;
    • the transpose to `[1, 40000]` and the cast to `[1, 1, 40000]` only move `l` from the row to the lane coordinate.
  So the stored element is `rowPotential` of row `l` of the block.
-/
import proofs.«106862_j9543417332555_2_alg».proof.Proof.Gen.KernelIdeal.Skeleton
import proofs.«106862_j9543417332555_2_alg».proof.Proof.RowPotential
import proofs.«106862_j9543417332555_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

open scoped BigOperators

noncomputable section

namespace Cert.KernelIdeal.Row

open Cert.KernelIdeal Cert.KernelIdeal.Gen Idealize.ShloMosaic Idealize.ShloMosaic.ValueIdx Cert.Potential

/-- Column `c` of the block, cut out as a `[40000, 1]` column, reads at `(l, 0)` the block's entry `(l, c)`. -/
theorem col_apply (X : FVec Ideal S40000x9 .f32) (o : ℕ) (h : S40000x9.Slices ![0, o] S40000x1) (c : Fin 9)
    (hc : c.val = o) (l : Fin 40000) (v : Fin 1) :
    extractStridedSlice S40000x1 ![0, o] X h (ix2 l v) = X (ix2 l c) :=
  slice2_axis1_apply o X h l v c (by have := v.isLt; omega)

/-- The lane sum of a `[40000, 9]` block, kept as a column, reads at `(l, 0)` the sum of row `l`. -/
theorem rowSum_apply (src : FVec Ideal S40000x9 .f32) (h : S40000x9.Reduces [1] S40000) (hφ : FKind.Formats .f32)
    (hacc : (0x00000000#32 : BitVec 32) = 0x00000000#32) (hc : S40000.ShapeCasts S40000x1)
    (l : Fin 40000) (v : Fin 1) :
    shapeCast S40000x1 (multiReduction .add [1] S40000 src 0x00000000#32 h hφ hacc) hc (ix2 l v)
      = ∑ j : Fin 9, src (ix2 l j) := by
  refine (Cert.Keepdims.shapeCast_a_a1_apply _ hc l v).trans ?_
  refine (Ideal.multiReduction_add_single src 0x00000000#32 h hφ hacc (ix1 l)).trans ?_
  refine Finset.sum_congr rfl fun j _ => congrArg src ?_
  funext a
  match a with
  | ⟨0, _⟩ => exact Fin.ext rfl
  | ⟨1, _⟩ => exact Fin.ext rfl

/-- The logarithm of a vector, read at an index, is the extended reals' logarithm of the element. -/
theorem log_apply {s : Shape} {φ : FTy} (a : FVec Ideal s φ) (i : s.Idx) : log a i = Ideal.log (a i) := rfl

/-- The body's stored block at `(0, 0, l)` is the potential of row `l` of the loaded block. -/
theorem pay_apply (x0 : Vec Ideal S40000x9 .f32) (u v : Fin 1) (l : Fin 40000) :
    k0_pay1 (F := Ideal) x0 (ix3 u v l) = rowPotential (fun j => x0 (ix2 l j)) := by
  unfold k0_pay1
  dsimp only
  refine (shapeCast_ab_1ab_apply _ _ u v l).trans ?_
  refine (transpose_ix2_apply _ _ v l).trans ?_
  simp only [addf_apply, subf_apply, mulf_apply, broadcast_apply, log_apply, shapeCast_self]
  rw [rowSum_apply, col_apply _ 0 _ 0 rfl l v, col_apply _ 1 _ 1 rfl l v, col_apply _ 2 _ 2 rfl l v,
    col_apply _ 3 _ 3 rfl l v, col_apply _ 4 _ 4 rfl l v, col_apply _ 5 _ 5 rfl l v, col_apply _ 6 _ 6 rfl l v,
    col_apply _ 7 _ 7 rfl l v, col_apply _ 8 _ 8 rfl l v]
  simp only [mulf_apply]
  rfl

end Cert.KernelIdeal.Row

end
-- ==== Proof.KernelValue.lean ====
/-
  What the kernel's program leaves in its result, as one function of the argument batch.

  The program flattens the batch `[4000000, 3, 3]` to `[4000000, 9]` (row `r` holds matrix `r`'s nine row-major entries),
  runs the body over 100 grid points, and flattens the `[100, 1, 40000]` output to `[4000000]`.
    • At point `t` the input block is rows `40000·t … 40000·t + 39999` of the flattened batch, and the output block is
      `(t, 0, ·)`. The body stores at `(0, 0, l)` the potential of row `l` of its block, so what point `t` writes back is
      the restriction to its block of ONE function of the whole array: `(a, 0, l) ↦` the potential of matrix `40000·a + l`.
    • Every index `(a, b, l)` of the output lies in point `a`'s block, so the output array ends at that function.
    • The final flattening reads position `n` at `(n / 40000, 0, n % 40000)`, and `40000·(n / 40000) + n % 40000 = n`:
      the result at `n` is the potential of matrix `n`.
-/
import proofs.«106862_j9543417332555_2_alg».proof.Proof.Gen.KernelIdeal.Frame
import proofs.«106862_j9543417332555_2_alg».proof.Proof.KernelRow
import proofs.«106862_j9543417332555_2_alg».proof.Proof.RowPotential
import Idealize.ShloMosaic.Lib.Pipeline.Value
import Idealize.ShloMosaic.Lib.StableHlo.Run
import Idealize.ShloMosaic.Lib.ValueIdx

set_option maxRecDepth 16384

noncomputable section

namespace Cert.KernelIdeal.Batch

open Cert.KernelIdeal Cert.KernelIdeal.Gen Cert.KernelIdeal.Row Cert.Potential
open Idealize.ShloMosaic Idealize.ShloMosaic.TcCoe Idealize.ShloMosaic.ValueIdx Idealize.SL.Sem
open Idealize.ShloMosaic.Pipeline (Dat)

/-! ## The flattened batch -/

/-- The batch flattened to `[4000000, 9]` reads, at `(r, j)`, entry `j` of matrix `r`: the two row-major positions are
    `(3r + j/3)·3 + j%3` and `9r + j`. -/
theorem flat_apply (x : S4000000x3x3.Idx → EReal) (h : S4000000x3x3.ShapeCasts S4000000x9) (r : Fin 4000000) (j : Fin 9) :
    shapeCast S4000000x9 x h (ix2 r j) = entries x r j :=
  shapeCast_apply x h (ix2 r j) (ix3 r (rowIx j) (colIx j)) (by
    rw [Shape.rowMajor_val_three, Shape.rowMajor_val_two]
    have hj := j.isLt
    show (r.val * 3 + j.val / 3) * 3 + j.val % 3 = r.val * 9 + j.val
    omega)

/-! ## The output array as one function -/

/-- The matrix whose potential lands at `(a, ·, l)` of the output array. -/
def blockRow (a : Fin 100) (l : Fin 40000) : Fin 4000000 := ⟨40000 * a.val + l.val, by have := a.isLt; have := l.isLt; omega⟩

/-- The `[100, 1, 40000]` output array as a function of the batch. -/
def blocks (x : S4000000x3x3.Idx → EReal) : S100x1x40000.Idx → EReal :=
  fun i => rowPotential (entries x (blockRow (i 0) (i 2)))

variable (m : (ℓ : Loc nD τ sig) → Buf (Elt Ideal) ℓ) (ρ : Dev nD → PrngReg)

/-- The region finds the flattened batch in the input window's array. -/
theorem flat_eq (c : Dev nD) : (V m c main_v0 : S4000000x9.Idx → EReal)
    = shapeCast S4000000x9 (m ((c : Thread nD τ).loc main_arg0)) shapeCasts_S4000000x3x3_S4000000x9 := by
  show StableHlo.after hostOps0 (fun b => m (c, b)) (Proc.devRef .tc main_v0) = _
  after_results
  rfl

/-- The printed index maps, decided over the grid: point `t` reads row-block `t` and writes output block `(t, 0, 0)`. -/
theorem idx_facts : ∀ t : Fin cfg0.N, win0_0.index t (0 : Fin 2) = t.val ∧ win0_0.index t (1 : Fin 2) = 0
    ∧ win0_1.index t (0 : Fin 3) = t.val ∧ win0_1.index t (1 : Fin 3) = 0 ∧ win0_1.index t (2 : Fin 3) = 0 :=
  (by decide +kernel : ∀ t : Fin grid0.N, _)

/-- Row `l` of point `t`'s input block is matrix `40000·t + l`. -/
theorem read_in (c : Dev nD) (t : Fin cfg0.N) (l : Fin 40000) (j : Fin 9) (R : Fin 4000000)
    (hR : R.val = 40000 * t.val + l.val) :
    iblk m c 0 t (ix2 l j) = entries (m ((c : Thread nD τ).loc main_arg0)) R j := by
  show V m c main_v0 (((cfg0.win 0).blk t).view.emb (ix2 l j)) = _
  have e : ((cfg0.win 0).blk t).view.emb (ix2 l j) = ix2 R j := by
    obtain ⟨e0, e1, -, -, -⟩ := idx_facts t
    funext a; apply Fin.ext
    match a with
    | ⟨0, _⟩ => show win0_0.index t (0 : Fin 2) * 40000 + 1 * l.val = R.val; omega
    | ⟨1, _⟩ => show win0_0.index t (1 : Fin 2) * 9 + 1 * j.val = j.val; omega
  rw [e, flat_eq, flat_apply]

theorem hz2 : (![0, 0] : Fin 2 → Nat) = fun _ => 0 := funext fun a => by fin_cases a <;> rfl
theorem hz3 : (![0, 0, 0] : Fin 3 → Nat) = fun _ => 0 := funext fun a => by fin_cases a <;> rfl

/-- What point `t` writes back is block `t` of `blocks` of the batch. -/
theorem flushed_eq (c : Dev nD) (t : Fin cfg0.N) :
    (dats m 0 c).flushed 1 t
      = ((cfg0.win 1).blk t).view.read (Elt Ideal) (blocks (m ((c : Thread nD τ).loc main_arg0))) := by
  show (cfg0.win 1).cut (grid0.coords t) ((dats m 0 c).after 1 t) = _
  rw [after0_1]
  unfold out0_1
  rw [View.canon_unit_zero hz3]
  simp only [View.ld_unit_zero (S := S40000x9) hz2]
  funext y
  obtain ⟨u, v, l, rfl⟩ : ∃ (u v : Fin 1) (l : Fin 40000), y = ix3 u v l := ⟨y 0, y 1, y 2, eq_ix3 y⟩
  show k0_pay1 (F := Ideal) (iblk m c 0 t) (ix3 u v l)
    = blocks (m ((c : Thread nD τ).loc main_arg0)) (((cfg0.win 1).blk t).view.emb (ix3 u v l))
  refine (pay_apply (iblk m c 0 t) u v l).trans ?_
  refine congrArg rowPotential (funext fun j => ?_)
  refine read_in m c t l j _ ?_
  obtain ⟨-, -, e2, e3, e4⟩ := idx_facts t
  have hu := u.isLt
  show 40000 * (win0_1.index t (0 : Fin 3) * 1 + 1 * u.val) + (win0_1.index t (2 : Fin 3) * 40000 + 1 * l.val)
    = 40000 * t.val + l.val
  omega

/-- An index of the output array is in point `t`'s block iff each coordinate is in the block's range on its axis. -/
theorem mem_blk (t : Fin cfg0.N) (i : S100x1x40000.Idx) :
    i ∈ ((cfg0.win 1).blk t).view.set ↔ ∀ a : Fin 3, win0_1.index t a * S1x1x40000.size a ≤ (i a).val
      ∧ (i a).val < win0_1.index t a * S1x1x40000.size a + S1x1x40000.size a := by
  show i ∈ ((View.whole main_v1).slice (win0_1.rect t)).set ↔ _
  rw [View.set_slice_whole, Rect.mem_set_unit]
  exact Iff.rfl

/-- Every index `(a, b, l)` of the output array is in point `a`'s block. -/
theorem cover (i : S100x1x40000.Idx) :
    ∃ t : Fin cfg0.N, (cfg0.win 1).flush t = true ∧ i ∈ ((cfg0.win 1).blk t).view.set := by
  have h0 : (i 0).val < 100 := (i 0).isLt
  have h1 : (i 1).val < 1 := (i 1).isLt
  have h2 : (i 2).val < 40000 := (i 2).isLt
  obtain ⟨t, ht⟩ : ∃ t : Fin cfg0.N, t.val = (i 0).val :=
    ⟨⟨(i 0).val, Nat.lt_of_lt_of_eq h0 N_0.symm⟩, rfl⟩
  refine ⟨t, flush0_1 t, ?_⟩
  rw [mem_blk]
  obtain ⟨-, -, e2, e3, e4⟩ := idx_facts t
  intro a
  match a with
  | ⟨0, _⟩ =>
    show win0_1.index t (0 : Fin 3) * 1 ≤ (i 0).val ∧ (i 0).val < win0_1.index t (0 : Fin 3) * 1 + 1
    omega
  | ⟨1, _⟩ =>
    show win0_1.index t (1 : Fin 3) * 1 ≤ (i 1).val ∧ (i 1).val < win0_1.index t (1 : Fin 3) * 1 + 1
    omega
  | ⟨2, _⟩ =>
    show win0_1.index t (2 : Fin 3) * 40000 ≤ (i 2).val ∧ (i 2).val < win0_1.index t (2 : Fin 3) * 40000 + 40000
    omega

/-- The output array after the run. -/
theorem final (c : Dev nD) : (dats m 0 c).arrAt 1 cfg0.N = blocks (m ((c : Thread nD τ).loc main_arg0)) :=
  (dats m 0 c).arrAt_eq_of_cover 1 (blocks (m ((c : Thread nD τ).loc main_arg0))) (fun t _ => flushed_eq m c t) cover

/-! ## The flattening after the region, and the run -/

/-- The `[100, 1, 40000]` array flattened reads, at `n`, its entry `(n / 40000, 0, n % 40000)`. -/
theorem unflat_apply (A : S100x1x40000.Idx → EReal) (h : S100x1x40000.ShapeCasts S4000000) (n : Fin 4000000) :
    shapeCast S4000000 A h (ix1 n)
      = A (ix3 (⟨n.val / 40000, by have := n.isLt; omega⟩ : Fin 100) (0 : Fin 1) (⟨n.val % 40000, by omega⟩ : Fin 40000)) :=
  shapeCast_apply A h _ _ (by
    rw [Shape.rowMajor_val_three, Shape.rowMajor_val_one]
    have hn := n.isLt
    show ((n.val / 40000) * 1 + 0) * 40000 + n.val % 40000 = n.val
    omega)

/-- The program's result after the run: the potentials of the batch. -/
theorem tail_eq (c : Dev nD) :
    Pipeline.afterTail₀ cfgs (dats m) 0 (V0 m) [hostOps1] c main_v2
      = potentials (m ((c : Thread nD τ).loc main_arg0)) := by
  unfold Pipeline.afterTail₀
  show StableHlo.after hostOps1 _ (Proc.devRef .tc main_v2) = _
  after_results
  rw [(Pipeline.withArrays_arr spec0 launch0.win.arr_inj c _ _ 1).trans (final m c)]
  funext i
  obtain ⟨n, rfl⟩ : ∃ n : Fin 4000000, i = ix1 n := ⟨i 0, eq_ix1 i⟩
  refine (unflat_apply _ _ n).trans ?_
  refine congrArg (fun r => rowPotential (entries (m ((c : Thread nD τ).loc main_arg0)) r)) (Fin.ext ?_)
  show 40000 * (n.val / 40000) + n.val % 40000 = n.val
  omega

/-- Every weakly fair execution of the kernel's program terminates with its result at the potentials of the batch and the
    batch unchanged. -/
theorem run : θ_run defs (onTc (τ := τ) (main (F := Ideal))) ⟨m, fun _ => 0, ρ⟩ fun r => ∀ c : Dev nD,
      r.2.mem ((c.tc : Thread nD τ).loc main_v2) = potentials (m ((c.tc : Thread nD τ).loc main_arg0))
      ∧ r.2.mem ((c.tc : Thread nD τ).loc main_arg0) = m ((c.tc : Thread nD τ).loc main_arg0) :=
  (θ_run defs _ _).mono (fun _ h c =>
      ⟨((h c).2 main_v2 (Pipeline.mem_restRefs_of main_v2 (by decide) (by decide))).trans (tail_eq m c),
        ((h c).2 main_arg0 (Pipeline.mem_restRefs_of main_arg0 (by decide) (by decide))).trans (W_main_arg0 m (dats m) c)⟩)
    (run_main m ρ)

end Cert.KernelIdeal.Batch

end
-- ==== Proof.RefEntries.lean ====
/-
  Where each of the reference's fifteen entry reads lands. The reference takes an entry `x[:, k, i]` of every matrix as a
  slice `[4000000, 1, 1]` at offsets `(0, k, i)` reshaped to a vector `[4000000]`; read at row `n`, the reshape sends `n` to
  `(n, 0, 0)` and the slice adds its offsets, so the read is the batch's entry `(n, k, i)`.
-/
import proofs.«106862_j9543417332555_2_alg».proof.Proof.Gen.ReferenceIdeal.Read
import Idealize.ShloMosaic.Lib.ValueIdx
import Idealize.ShloMosaic.PureOps.Ideal.Laws

open scoped BigOperators

noncomputable section

namespace Cert.ReferenceIdeal.RefValue

open Cert.ReferenceIdeal Cert.ReferenceIdeal.Gen Cert.ReferenceIdeal.Read Idealize.ShloMosaic Idealize.ShloMosaic.ValueIdx

/-! ## The composed index of each slice and reshape -/

theorem entry_v15 (n : Fin 4000000) : idx_main_v14 (idx_main_v15 (ix1 n)) = ix3 n 0 0 := by
  funext a
  match a with
  | ⟨0, _⟩ => exact Fin.ext (Nat.div_one _)
  | ⟨1, _⟩ => exact Fin.ext rfl
  | ⟨2, _⟩ => exact Fin.ext rfl
theorem entry_v17 (n : Fin 4000000) : idx_main_v16 (idx_main_v17 (ix1 n)) = ix3 n 1 1 := by
  funext a
  match a with
  | ⟨0, _⟩ => exact Fin.ext (Nat.div_one _)
  | ⟨1, _⟩ => exact Fin.ext rfl
  | ⟨2, _⟩ => exact Fin.ext rfl
theorem entry_v19 (n : Fin 4000000) : idx_main_v18 (idx_main_v19 (ix1 n)) = ix3 n 2 2 := by
  funext a
  match a with
  | ⟨0, _⟩ => exact Fin.ext (Nat.div_one _)
  | ⟨1, _⟩ => exact Fin.ext rfl
  | ⟨2, _⟩ => exact Fin.ext rfl
theorem entry_v22 (n : Fin 4000000) : idx_main_v21 (idx_main_v22 (ix1 n)) = ix3 n 1 2 := by
  funext a
  match a with
  | ⟨0, _⟩ => exact Fin.ext (Nat.div_one _)
  | ⟨1, _⟩ => exact Fin.ext rfl
  | ⟨2, _⟩ => exact Fin.ext rfl
theorem entry_v24 (n : Fin 4000000) : idx_main_v23 (idx_main_v24 (ix1 n)) = ix3 n 2 1 := by
  funext a
  match a with
  | ⟨0, _⟩ => exact Fin.ext (Nat.div_one _)
  | ⟨1, _⟩ => exact Fin.ext rfl
  | ⟨2, _⟩ => exact Fin.ext rfl
theorem entry_v29 (n : Fin 4000000) : idx_main_v28 (idx_main_v29 (ix1 n)) = ix3 n 0 1 := by
  funext a
  match a with
  | ⟨0, _⟩ => exact Fin.ext (Nat.div_one _)
  | ⟨1, _⟩ => exact Fin.ext rfl
  | ⟨2, _⟩ => exact Fin.ext rfl
theorem entry_v31 (n : Fin 4000000) : idx_main_v30 (idx_main_v31 (ix1 n)) = ix3 n 1 0 := by
  funext a
  match a with
  | ⟨0, _⟩ => exact Fin.ext (Nat.div_one _)
  | ⟨1, _⟩ => exact Fin.ext rfl
  | ⟨2, _⟩ => exact Fin.ext rfl
theorem entry_v33 (n : Fin 4000000) : idx_main_v32 (idx_main_v33 (ix1 n)) = ix3 n 2 2 := by
  funext a
  match a with
  | ⟨0, _⟩ => exact Fin.ext (Nat.div_one _)
  | ⟨1, _⟩ => exact Fin.ext rfl
  | ⟨2, _⟩ => exact Fin.ext rfl
theorem entry_v36 (n : Fin 4000000) : idx_main_v35 (idx_main_v36 (ix1 n)) = ix3 n 1 2 := by
  funext a
  match a with
  | ⟨0, _⟩ => exact Fin.ext (Nat.div_one _)
  | ⟨1, _⟩ => exact Fin.ext rfl
  | ⟨2, _⟩ => exact Fin.ext rfl
theorem entry_v38 (n : Fin 4000000) : idx_main_v37 (idx_main_v38 (ix1 n)) = ix3 n 2 0 := by
  funext a
  match a with
  | ⟨0, _⟩ => exact Fin.ext (Nat.div_one _)
  | ⟨1, _⟩ => exact Fin.ext rfl
  | ⟨2, _⟩ => exact Fin.ext rfl
theorem entry_v44 (n : Fin 4000000) : idx_main_v43 (idx_main_v44 (ix1 n)) = ix3 n 0 2 := by
  funext a
  match a with
  | ⟨0, _⟩ => exact Fin.ext (Nat.div_one _)
  | ⟨1, _⟩ => exact Fin.ext rfl
  | ⟨2, _⟩ => exact Fin.ext rfl
theorem entry_v46 (n : Fin 4000000) : idx_main_v45 (idx_main_v46 (ix1 n)) = ix3 n 1 0 := by
  funext a
  match a with
  | ⟨0, _⟩ => exact Fin.ext (Nat.div_one _)
  | ⟨1, _⟩ => exact Fin.ext rfl
  | ⟨2, _⟩ => exact Fin.ext rfl
theorem entry_v48 (n : Fin 4000000) : idx_main_v47 (idx_main_v48 (ix1 n)) = ix3 n 2 1 := by
  funext a
  match a with
  | ⟨0, _⟩ => exact Fin.ext (Nat.div_one _)
  | ⟨1, _⟩ => exact Fin.ext rfl
  | ⟨2, _⟩ => exact Fin.ext rfl
theorem entry_v51 (n : Fin 4000000) : idx_main_v50 (idx_main_v51 (ix1 n)) = ix3 n 1 1 := by
  funext a
  match a with
  | ⟨0, _⟩ => exact Fin.ext (Nat.div_one _)
  | ⟨1, _⟩ => exact Fin.ext rfl
  | ⟨2, _⟩ => exact Fin.ext rfl
theorem entry_v53 (n : Fin 4000000) : idx_main_v52 (idx_main_v53 (ix1 n)) = ix3 n 2 0 := by
  funext a
  match a with
  | ⟨0, _⟩ => exact Fin.ext (Nat.div_one _)
  | ⟨1, _⟩ => exact Fin.ext rfl
  | ⟨2, _⟩ => exact Fin.ext rfl

/-! ## The reads -/

theorem read_v15 (x : (⟨S4000000x3x3, .f32⟩ : BufTy).Contents (Elt Ideal)) (n : Fin 4000000) :
    val_main_v15 (F := Ideal) x (ix1 n) = x (ix3 n 0 0) := by
  rw [val_main_v15_apply, val_main_v14_apply, entry_v15]
theorem read_v17 (x : (⟨S4000000x3x3, .f32⟩ : BufTy).Contents (Elt Ideal)) (n : Fin 4000000) :
    val_main_v17 (F := Ideal) x (ix1 n) = x (ix3 n 1 1) := by
  rw [val_main_v17_apply, val_main_v16_apply, entry_v17]
theorem read_v19 (x : (⟨S4000000x3x3, .f32⟩ : BufTy).Contents (Elt Ideal)) (n : Fin 4000000) :
    val_main_v19 (F := Ideal) x (ix1 n) = x (ix3 n 2 2) := by
  rw [val_main_v19_apply, val_main_v18_apply, entry_v19]
theorem read_v22 (x : (⟨S4000000x3x3, .f32⟩ : BufTy).Contents (Elt Ideal)) (n : Fin 4000000) :
    val_main_v22 (F := Ideal) x (ix1 n) = x (ix3 n 1 2) := by
  rw [val_main_v22_apply, val_main_v21_apply, entry_v22]
theorem read_v24 (x : (⟨S4000000x3x3, .f32⟩ : BufTy).Contents (Elt Ideal)) (n : Fin 4000000) :
    val_main_v24 (F := Ideal) x (ix1 n) = x (ix3 n 2 1) := by
  rw [val_main_v24_apply, val_main_v23_apply, entry_v24]
theorem read_v29 (x : (⟨S4000000x3x3, .f32⟩ : BufTy).Contents (Elt Ideal)) (n : Fin 4000000) :
    val_main_v29 (F := Ideal) x (ix1 n) = x (ix3 n 0 1) := by
  rw [val_main_v29_apply, val_main_v28_apply, entry_v29]
theorem read_v31 (x : (⟨S4000000x3x3, .f32⟩ : BufTy).Contents (Elt Ideal)) (n : Fin 4000000) :
    val_main_v31 (F := Ideal) x (ix1 n) = x (ix3 n 1 0) := by
  rw [val_main_v31_apply, val_main_v30_apply, entry_v31]
theorem read_v33 (x : (⟨S4000000x3x3, .f32⟩ : BufTy).Contents (Elt Ideal)) (n : Fin 4000000) :
    val_main_v33 (F := Ideal) x (ix1 n) = x (ix3 n 2 2) := by
  rw [val_main_v33_apply, val_main_v32_apply, entry_v33]
theorem read_v36 (x : (⟨S4000000x3x3, .f32⟩ : BufTy).Contents (Elt Ideal)) (n : Fin 4000000) :
    val_main_v36 (F := Ideal) x (ix1 n) = x (ix3 n 1 2) := by
  rw [val_main_v36_apply, val_main_v35_apply, entry_v36]
theorem read_v38 (x : (⟨S4000000x3x3, .f32⟩ : BufTy).Contents (Elt Ideal)) (n : Fin 4000000) :
    val_main_v38 (F := Ideal) x (ix1 n) = x (ix3 n 2 0) := by
  rw [val_main_v38_apply, val_main_v37_apply, entry_v38]
theorem read_v44 (x : (⟨S4000000x3x3, .f32⟩ : BufTy).Contents (Elt Ideal)) (n : Fin 4000000) :
    val_main_v44 (F := Ideal) x (ix1 n) = x (ix3 n 0 2) := by
  rw [val_main_v44_apply, val_main_v43_apply, entry_v44]
theorem read_v46 (x : (⟨S4000000x3x3, .f32⟩ : BufTy).Contents (Elt Ideal)) (n : Fin 4000000) :
    val_main_v46 (F := Ideal) x (ix1 n) = x (ix3 n 1 0) := by
  rw [val_main_v46_apply, val_main_v45_apply, entry_v46]
theorem read_v48 (x : (⟨S4000000x3x3, .f32⟩ : BufTy).Contents (Elt Ideal)) (n : Fin 4000000) :
    val_main_v48 (F := Ideal) x (ix1 n) = x (ix3 n 2 1) := by
  rw [val_main_v48_apply, val_main_v47_apply, entry_v48]
theorem read_v51 (x : (⟨S4000000x3x3, .f32⟩ : BufTy).Contents (Elt Ideal)) (n : Fin 4000000) :
    val_main_v51 (F := Ideal) x (ix1 n) = x (ix3 n 1 1) := by
  rw [val_main_v51_apply, val_main_v50_apply, entry_v51]
theorem read_v53 (x : (⟨S4000000x3x3, .f32⟩ : BufTy).Contents (Elt Ideal)) (n : Fin 4000000) :
    val_main_v53 (F := Ideal) x (ix1 n) = x (ix3 n 2 0) := by
  rw [val_main_v53_apply, val_main_v52_apply, entry_v53]

end Cert.ReferenceIdeal.RefValue

end
-- ==== Proof.LibTrailingSum.lean ====
/-
  A host sum over the two trailing axes of a rank-3 array, read at a row. The host's `reduce add` at the ideal values is
  the initial value plus the sum of the operand over the source indices that drop to the result index; when the dropped
  axes are the last two of `[n, a, b]`, those indices are exactly `(r, p, q)` for `p < a`, `q < b`, so the sum is the
  double sum over the two trailing coordinates. Also: a sum over a rank-3 index set as the triple sum over coordinates.
-/
import Idealize.ShloMosaic.PureOps.Ideal.Laws
import Idealize.ShloMosaic.Lib.ValueIdx

open scoped BigOperators

namespace Cert.TrailingSum

open Idealize.ShloMosaic Idealize.ShloMosaic.ValueIdx

/-- A rank-3 index set is the product of its three coordinate ranges … -/
def idxEquiv3 {n0 n1 n2 : ℕ} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : ℕ} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- With the two trailing axes reduced, the one kept axis is the leading one, whatever the extents. -/
theorem kept_trailing {n a b : ℕ} : (⟨3, ![n, a, b]⟩ : Shape).kept [1, 2] = [0] := rfl

/-- The dropped index's one coordinate is the source's leading coordinate. -/
theorem drop_val {n a b : ℕ} (h' : (⟨3, ![n, a, b]⟩ : Shape).ReducesTo [1, 2] ⟨1, ![n]⟩)
    (i : (⟨3, ![n, a, b]⟩ : Shape).Idx) : (h'.drop i 0 : ℕ) = (i 0).val :=
  Shape.ReducesTo.drop_apply_val_of_eq h' i 0 0 (by rw [kept_trailing]; exact Nat.zero_lt_one)
    (by simp only [kept_trailing]; rfl)

/-- Dropping the two trailing axes of `(r, p, q)` leaves `r`. -/
theorem drop_ix3 {n a b : ℕ} (h' : (⟨3, ![n, a, b]⟩ : Shape).ReducesTo [1, 2] ⟨1, ![n]⟩)
    (r : Fin n) (p : Fin a) (q : Fin b) : h'.drop (ix3 r p q) = ix1 r := by
  funext d
  match d with
  | ⟨0, _⟩ => exact Fin.ext (drop_val h' (ix3 r p q))

/-- An index that drops to `r` has `r` as its leading coordinate. -/
theorem lead_of_drop {n a b : ℕ} (h' : (⟨3, ![n, a, b]⟩ : Shape).ReducesTo [1, 2] ⟨1, ![n]⟩)
    (i : (⟨3, ![n, a, b]⟩ : Shape).Idx) (r : Fin n) (h : h'.drop i = ix1 r) : (i 0).val = r.val := by
  have h0 := congrArg (fun j : (⟨1, ![n]⟩ : Shape).Idx => (j 0).val) h
  exact (drop_val h' i).symm.trans h0

/-- The host's sum of an `[n, a, b]` array over its two trailing axes, at row `r`: the initial value plus the double
    sum over the trailing coordinates. -/
theorem hostReduceAdd_trailing2 {n a b : ℕ} (h' : (⟨3, ![n, a, b]⟩ : Shape).ReducesTo [1, 2] ⟨1, ![n]⟩)
    (x : (⟨3, ![n, a, b]⟩ : Shape).Idx → EReal) (init : EReal) (r : Fin n) :
    Ideal.hostReduceAdd h' x init (ix1 r) = init + ∑ p : Fin a, ∑ q : Fin b, x (ix3 r p q) := by
  unfold Ideal.hostReduceAdd
  congr 1
  rw [← Fintype.sum_prod_type' (fun (p : Fin a) (q : Fin b) => x (ix3 r p q))]
  refine Finset.sum_nbij' (fun i => ((i 1 : Fin a), (i 2 : Fin b))) (fun pq => ix3 r pq.1 pq.2)
    (fun _ _ => Finset.mem_univ _) (fun pq _ => ?_) (fun i hi => ?_) (fun _ _ => rfl) (fun i hi => ?_)
  · exact Finset.mem_filter.mpr ⟨Finset.mem_univ _, drop_ix3 h' r pq.1 pq.2⟩
  · have h0 := lead_of_drop h' i r (Finset.mem_filter.mp hi).2
    funext d
    match d with
    | ⟨0, _⟩ => exact Fin.ext h0.symm
    | ⟨1, _⟩ => rfl
    | ⟨2, _⟩ => rfl
  · have h0 := lead_of_drop h' i r (Finset.mem_filter.mp hi).2
    refine congrArg x ?_
    funext d
    match d with
    | ⟨0, _⟩ => exact Fin.ext h0
    | ⟨1, _⟩ => rfl
    | ⟨2, _⟩ => rfl

end Cert.TrailingSum
-- ==== Proof.RefTrace.lean ====
/-
  The reference's first invariant. The Gram matrix `C = xᵀx` at `(n, p, q)` is `Σ_k x(n,k,p)·x(n,k,q)`; its trace is taken by
  selecting `C` where the two coordinate counters are equal (zero elsewhere) and summing over both trailing axes from the
  zero word. By the summation law of the specification this is the sum of the squares of the matrix's nine entries.
-/
import proofs.«106862_j9543417332555_2_alg».proof.Proof.Gen.ReferenceIdeal.Read
import proofs.«106862_j9543417332555_2_alg».proof.Proof.RowPotential
import proofs.«106862_j9543417332555_2_alg».proof.Proof.LibTrailingSum
import Idealize.ShloMosaic.Lib.ValueIdx
import Idealize.ShloMosaic.PureOps.Ideal.Laws

open scoped BigOperators

noncomputable section

namespace Cert.ReferenceIdeal.RefValue

open Cert.ReferenceIdeal Cert.ReferenceIdeal.Gen Cert.ReferenceIdeal.Read Idealize.ShloMosaic Idealize.ShloMosaic.ValueIdx
open Cert.Potential

/-- Two coordinate counters below 3, compared as 32-bit words, are equal exactly when the coordinates are. -/
theorem mask_iff : ∀ p q : Fin 3, IntOp.cmpi .eq (BitVec.ofNat 32 p.val) (BitVec.ofNat 32 q.val) = 1#1 ↔ p = q := by
  decide

/-- The left factor of the Gram entry `(n, p, q)` at contraction index `k` is the batch's entry `(n, k, p)`. -/
theorem gram_left (n : Fin 4000000) (p q k : Fin 3) : lidx_main_v0 (ix3 n p q) k = ix3 n k p := by
  funext a
  match a with
  | ⟨0, _⟩ => rfl
  | ⟨1, _⟩ => rfl
  | ⟨2, _⟩ => rfl

/-- The right factor is the entry `(n, k, q)`. -/
theorem gram_right (n : Fin 4000000) (p q k : Fin 3) : ridx_main_v0 (ix3 n p q) k = ix3 n k q := by
  funext a
  match a with
  | ⟨0, _⟩ => rfl
  | ⟨1, _⟩ => rfl
  | ⟨2, _⟩ => rfl

/-- The mask at `(n, p, q)` compares the counters `p` and `q`. -/
theorem mask_apply (n : Fin 4000000) (p q : Fin 3) :
    val_main_v4 (F := Ideal) (ix3 n p q) = IntOp.cmpi .eq (BitVec.ofNat 32 p.val) (BitVec.ofNat 32 q.val) := by
  rw [val_main_v4_apply, val_main_v3_apply, val_main_v1_apply, val_main_v2_apply]

/-- The masked Gram matrix at `(n, p, q)`: the Gram entry on the diagonal, zero off it. -/
theorem masked_gram_apply (x : (⟨S4000000x3x3, .f32⟩ : BufTy).Contents (Elt Ideal)) (n : Fin 4000000) (p q : Fin 3) :
    val_main_v6 (F := Ideal) x (ix3 n p q) = if p = q then ∑ k : Fin 3, x (ix3 n k p) * x (ix3 n k q) else 0 := by
  rw [val_main_v6_apply, mask_apply, val_main_v0_apply, val_main_v5_apply, val_main_cst_apply]
  simp only [gram_left, gram_right]
  refine Eq.trans ?_ (if_congr (mask_iff p q) rfl rfl)
  exact congrArg (fun z : EReal => if IntOp.cmpi .eq (BitVec.ofNat 32 p.val) (BitVec.ofNat 32 q.val) = 1#1
    then ∑ k : Fin 3, x (ix3 n k p) * x (ix3 n k q) else z) Ideal.ofBits_zero_f32

/-- The reference's first invariant at row `n` is the sum of the squares of the matrix's nine entries. -/
theorem trace_apply (x : (⟨S4000000x3x3, .f32⟩ : BufTy).Contents (Elt Ideal)) (n : Fin 4000000) :
    val_main_v7 (F := Ideal) x (ix1 n) = ∑ j : Fin 9, entries x n j * entries x n j := by
  unfold val_main_v7
  refine (Cert.TrailingSum.hostReduceAdd_trailing2 reducesTo_S4000000x3x3_S4000000_d1_2 (val_main_v6 (F := Ideal) x)
    (val_main_cst_0 (F := Ideal) (Shape.Idx.first h_S_)) n).trans ?_
  rw [val_main_cst_0_apply]
  refine (congrArg (· + _) Ideal.ofBits_zero_f32).trans ?_
  rw [zero_add]
  refine Eq.trans ?_ (trace_gram (fun k i => x (ix3 n k i)))
  exact Finset.sum_congr rfl fun p _ => Finset.sum_congr rfl fun q _ => masked_gram_apply x n p q

end Cert.ReferenceIdeal.RefValue

end
-- ==== Proof.RefValue.lean ====
/-
  The reference computes the specification. At row `n` its result is the chain of pointwise operations
    (c₁·(I1 − 3) − c₂·log J) + (c₃·log J)·log J
  over the first invariant `I1` (the trace of the Gram matrix: the sum of the nine squares) and the determinant `J` of the
  nine entry reads, the host's logarithm being the extended reals' — letter for letter the specification's `rowPotential`
  of matrix `n`. The reference's second invariant is computed but never used by the result, so it does not appear here.
-/
import proofs.«106862_j9543417332555_2_alg».proof.Proof.Gen.ReferenceIdeal.Read
import proofs.«106862_j9543417332555_2_alg».proof.Proof.RowPotential
import proofs.«106862_j9543417332555_2_alg».proof.Proof.RefEntries
import proofs.«106862_j9543417332555_2_alg».proof.Proof.RefTrace
import Idealize.ShloMosaic.Lib.ValueIdx
import Idealize.ShloMosaic.PureOps.Ideal.Laws

open scoped BigOperators

noncomputable section

namespace Cert.ReferenceIdeal.RefValue

open Cert.ReferenceIdeal Cert.ReferenceIdeal.Gen Cert.ReferenceIdeal.Read Idealize.ShloMosaic Idealize.ShloMosaic.ValueIdx
open Cert.Potential

/-- The reference's determinant at row `n`: the cofactor expansion over the entry reads, as the specification spells it. -/
theorem det_apply (x : (⟨S4000000x3x3, .f32⟩ : BufTy).Contents (Elt Ideal)) (n : Fin 4000000) :
    val_main_v57 (F := Ideal) x (ix1 n) = det3 (entries x n) := by
  rw [val_main_v57_apply, val_main_v42_apply, val_main_v56_apply, val_main_v27_apply, val_main_v41_apply,
    val_main_v26_apply, val_main_v40_apply, val_main_v55_apply, val_main_v20_apply, val_main_v25_apply,
    val_main_v34_apply, val_main_v39_apply, val_main_v49_apply, val_main_v54_apply,
    read_v15, read_v17, read_v19, read_v22, read_v24, read_v29, read_v31, read_v33, read_v36, read_v38,
    read_v44, read_v46, read_v48, read_v51, read_v53]
  rfl

/-- The reference's result at row `n` is the potential of matrix `n`. -/
theorem result_apply (x : (⟨S4000000x3x3, .f32⟩ : BufTy).Contents (Elt Ideal)) (n : Fin 4000000) :
    val_main_v69 (F := Ideal) x (ix1 n) = rowPotential (entries x n) := by
  rw [val_main_v69_apply, val_main_v65_apply, val_main_v68_apply, val_main_v62_apply, val_main_v64_apply,
    val_main_v67_apply, val_main_v60_apply, val_main_v58_apply, det_apply, trace_apply,
    val_main_v61_apply, val_main_cst_4_apply, val_main_v59_apply, val_main_cst_3_apply,
    val_main_v63_apply, val_main_cst_5_apply, val_main_v66_apply, val_main_cst_6_apply]
  rfl

/-- The reference's result is the specification. -/
theorem result_eq (x : (⟨S4000000x3x3, .f32⟩ : BufTy).Contents (Elt Ideal)) :
    val_main_v69 (F := Ideal) x = potentials x := by
  funext i
  obtain ⟨n, rfl⟩ : ∃ n : Fin 4000000, i = ix1 n := ⟨i 0, eq_ix1 i⟩
  exact result_apply x n

end Cert.ReferenceIdeal.RefValue

end
-- ==== Proof.lean ====
/-
  The Neo-Hookean potential of four million 3×3 deformation gradients, computed two ways, is one function on the extended
  reals.

  For a matrix `x` both programs compute
      W = (c₁·(I1 − 3) − c₂·log J) + (c₃·log J)·log J,     I1 = tr(xᵀx),   J = det x,
  with the same three constant words, the determinant by the same cofactor expansion along the first row, and the same
  logarithm. They differ in how the trace is taken and in how the batch is laid out:
    • the reference forms the Gram matrix `C = xᵀx` by a contraction, keeps its diagonal under a mask and sums all nine
      masked entries; the kernel flattens each matrix to a row of nine entries and sums the nine squares. Since
      `Σ_p C_pp = Σ_p Σ_k x_kp² = Σ_k Σ_i x_ki²`, the two are the same sum; only commutativity and associativity of addition
      are used, which hold at the infinities too, so the inputs' finiteness is never opened;
    • the kernel walks the flattened batch in 100 blocks of 40000 rows, writes each block's potentials as a lane-dense
      `[1, 1, 40000]` tile, and flattens the `[100, 1, 40000]` result; position `n` of the result is row `n % 40000` of block
      `n / 40000`, which is matrix `n`.
  So both programs end with their result at `Cert.Potential.potentials` of the batch (Proof/RowPotential.lean): the kernel by
  Proof/KernelRow.lean (one stored element) and Proof/KernelValue.lean (blocks, array, flattening); the reference by
  Proof/RefEntries.lean, Proof/RefTrace.lean and Proof/RefValue.lean. No operation of the kernel is rewritten on the way
  from machine words to extended reals, so `preserves` has nothing to state.
-/
import proofs.«106862_j9543417332555_2_alg».proof.Defs
import proofs.«106862_j9543417332555_2_alg».proof.Proof.Gen.Kernel
import proofs.«106862_j9543417332555_2_alg».proof.Proof.Gen.Kernel.Skeleton
import proofs.«106862_j9543417332555_2_alg».proof.Proof.Gen.Kernel.Launch
import proofs.«106862_j9543417332555_2_alg».proof.Proof.Gen.Kernel.Points
import proofs.«106862_j9543417332555_2_alg».proof.Proof.Gen.Kernel.Frame
import proofs.«106862_j9543417332555_2_alg».proof.Proof.Gen.KernelIdeal
import proofs.«106862_j9543417332555_2_alg».proof.Proof.Gen.KernelIdeal.Skeleton
import proofs.«106862_j9543417332555_2_alg».proof.Proof.Gen.KernelIdeal.Launch
import proofs.«106862_j9543417332555_2_alg».proof.Proof.Gen.KernelIdeal.Points
import proofs.«106862_j9543417332555_2_alg».proof.Proof.Gen.KernelIdeal.Frame
import proofs.«106862_j9543417332555_2_alg».proof.Proof.Gen.ReferenceIdeal
import proofs.«106862_j9543417332555_2_alg».proof.Proof.Gen.ReferenceIdeal.Run
import proofs.«106862_j9543417332555_2_alg».proof.Proof.Gen.ReferenceIdeal.Read
import proofs.«106862_j9543417332555_2_alg».proof.Proof.Gen.Pre_finite_inputs
import proofs.«106862_j9543417332555_2_alg».proof.Proof.RowPotential
import proofs.«106862_j9543417332555_2_alg».proof.Proof.KernelValue
import proofs.«106862_j9543417332555_2_alg».proof.Proof.RefValue
import Idealize.ShloMosaic.Adequacy
import Idealize.ShloMosaic.Init

noncomputable section

namespace Cert.Proof

open Idealize.ShloMosaic Idealize.ShloMosaic.TcCoe Idealize.SL.Sem

/-- The printed kernel runs and leaves the batch unchanged. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference runs and leaves the batch unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten on the way to the extended reals. -/
theorem preserves : Cert.preserves_Kernel_KernelIdeal := trivial

/-- From batches that agree, both programs end at the potentials of the batch. -/
theorem algebraic : Cert.algebraic_KernelIdeal_ReferenceIdeal := by
  intro m ρ m' ρ' _ hagree
  refine ⟨fun c => Cert.Potential.potentials
    (m ((c.tc : Thread Cert.KernelIdeal.nD Cert.KernelIdeal.τ).loc Cert.KernelIdeal.main_arg0)),
    Cert.KernelIdeal.Batch.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v69_eq, Cert.ReferenceIdeal.RefValue.result_eq, hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
